-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 65
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v43) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RowNorm.lean ====
/-
  Row-wise layer normalisation followed by ReLU, on the extended reals: the one function both programs apply to each
  row of 128 pre-activations.

  For a row `a : Fin 128 → EReal` with mean `μ = (∑ₖ aₖ) / 128` and variance `σ² = (∑ₖ (aₖ − μ)²) / 128`, entry `q` of the
  result is `max (((a_q − μ) · (σ² + ε)^(−1/2)) · γ_q + β_q) 0`. The three constants are kept as the float words both
  programs print (128, ε = f32(1e-5), zero): the same word on both sides is never evaluated.
-/
import Idealize.ShloMosaic.PureOps.Ideal
import Idealize.ShloMosaic.Lib.ValueIdx

noncomputable section

namespace Cert.RowNorm

open Idealize.ShloMosaic Idealize.ShloMosaic.ValueIdx

/-- The divisor 128 of both means, as the float word the programs print. -/
abbrev c128 : EReal := Ideal.ofBits .f32 0x43000000#32
/-- The variance's ε. -/
abbrev eps : EReal := Ideal.ofBits .f32 0x3727C5AC#32
/-- The ReLU's zero. -/
abbrev zero : EReal := Ideal.ofBits .f32 0x00000000#32

/-- The mean of a row of 128 entries. -/
def mean (a : Fin 128 → EReal) : EReal := Ideal.div (∑ k : Fin 128, a k) c128

/-- The (biased) variance of a row: the mean of the squared deviations from the row's mean. -/
def variance (a : Fin 128 → EReal) : EReal := Ideal.div (∑ k : Fin 128, (a k - mean a) * (a k - mean a)) c128

/-- Entry `q` of the normalised, scaled, shifted and rectified row. -/
def rowNorm (a γ β : Fin 128 → EReal) (q : Fin 128) : EReal :=
  max ((a q - mean a) * Ideal.rsqrt (variance a + eps) * γ q + β q) zero

/-- The whole array: row `n` of the result is `rowNorm` of row `n` of the pre-activations `a`, with the scale `γ` and the
    shift `β` read along the feature axis. -/
def normRows {R : Nat} (a : (⟨2, ![R, 128]⟩ : Shape).Idx → EReal) (γ β : Fin 128 → EReal) :
    (⟨2, ![R, 128]⟩ : Shape).Idx → EReal :=
  fun i => rowNorm (fun k => a (ix2 (i 0) k)) γ β (i 1)

theorem normRows_apply {R : Nat} (a : (⟨2, ![R, 128]⟩ : Shape).Idx → EReal) (γ β : Fin 128 → EReal) (n : Fin R) (q : Fin 128) :
    normRows a γ β (ix2 n q) = rowNorm (fun k => a (ix2 n k)) γ β q := rfl

/-- Two arrays of pre-activations that agree entry by entry normalise to the same array. -/
theorem normRows_congr {R : Nat} (a a' : (⟨2, ![R, 128]⟩ : Shape).Idx → EReal) (γ β : Fin 128 → EReal)
    (h : ∀ (n : Fin R) (k : Fin 128), a (ix2 n k) = a' (ix2 n k)) : normRows a γ β = normRows a' γ β := by
  funext i
  unfold normRows
  exact congrArg (fun r => rowNorm r γ β (i 1)) (funext fun k => h (i 0) k)

end Cert.RowNorm

end
-- ==== Proof.KernelBody.lean ====
/-
  The kernel body's arithmetic, read at one index of its 4000 × 128 output block.

  From the blocks it loads — 4000 rows `x0` of aggregated features, the 128 × 128 weights `x1`, and the bias, scale and
  shift as 1 × 128 rows `x2`, `x3`, `x4` — the body forms the pre-activations `a(p, j) = ∑ₖ x0(p, k) · x1(k, j) + x2(0, j)`
  (a matrix product onto a zero accumulator; the narrowing of its operands to bf16 is the identity on extended reals),
  then normalises each row: lane sums for the mean and the variance, a reciprocal square root, scale, shift, and a
  maximum with zero. At entry `(p, q)` that is `RowNorm.rowNorm` of row `p` of `a`.
-/
import proofs.«121900_j12635793785486_2_alg».proof.Proof.Gen.KernelIdeal.Skeleton
import proofs.«121900_j12635793785486_2_alg».proof.Proof.RowNorm
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.RowNorm

variable [Cert.KernelIdeal.Facts]

/-! ## The matrix product at an entry -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry `(p, j)` of the product of a 4000 × 128 block with the 128 × 128 weights, onto a zero accumulator: the sum over
    the contracted axis of the products. -/
theorem matmul_entry (l : FVec Ideal S4000x128 .bf16) (r : FVec Ideal S128x128 .bf16) (p : Fin 4000) (j : Fin 128) :
    matmul dot_S4000x128_S128x128_S4000x128_1_0_0_1_n_n none l r (constant S4000x128 .f32 0x00000000#32) (ix2 p j)
      = ∑ k : Fin 128, l (ix2 p k) * r (ix2 k j) := by
  show FloatOps.matmul dot_S4000x128_S128x128_S4000x128_1_0_0_1_n_n none l r (constant S4000x128 .f32 0x00000000#32) (ix2 p j) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-! ## The layout operations at an entry -/

/-- A 1 × 128 row broadcast down 4000 rows reads the row's entry in that column. -/
theorem rowBcast_entry (v : FVec Ideal S1x128 .f32) (p : Fin 4000) (q : Fin 128) :
    broadcastTo S4000x128 v broadcasts_S1x128_S4000x128 (ix2 p q) = v (ix2 (0 : Fin 1) q) :=
  broadcastTo_1b_ab_apply v broadcasts_S1x128_S4000x128 p q

/-- A 4000 × 1 column broadcast across 128 lanes reads the column's entry in that row. -/
theorem colBcast_entry (v : FVec Ideal S4000x1 .f32) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ => rfl
  | ⟨1, _⟩ => rfl

/-- The reciprocal square root of a column, entry by entry. -/
theorem rsqrt_entry (v : FVec Ideal S4000x1 .f32) (i : S4000x1.Idx) : rsqrt v i = Ideal.rsqrt (v i) := rfl

/-! ## The lane sums -/

/-- f32 is a format lane reductions are compiled at. -/
theorem fmt32 : FKind.Formats FTy.f32 := .inl rfl
/-- The zero word is the neutral accumulator of a float sum. -/
theorem acc0 : (0x00000000#32 : BitVec FTy.f32.bits) = FKind.add.neutral FTy.f32 fmt32 := rfl

/-- The lane sums of a 4000 × 128 block, kept as a 4000 × 1 column. -/
def rowSums (v : FVec Ideal S4000x128 .f32) : FVec Ideal S4000x1 .f32 :=
  shapeCast S4000x1 (multiReduction .add [1] S4000 v 0x00000000#32 reduces_S4000x128_S4000 fmt32 acc0) shapeCasts_S4000_S4000x1

/-- Row `p`'s entry of the lane sums is the sum of row `p`. -/
theorem rowSums_entry (v : FVec Ideal S4000x128 .f32) (p : Fin 4000) :
    rowSums v (ix2 p (0 : Fin 1)) = ∑ k : Fin 128, v (ix2 p k) := by
  unfold rowSums
  rw [shapeCast_apply _ shapeCasts_S4000_S4000x1 (ix2 p (0 : Fin 1)) (ix1 p) (by
    rw [Shape.rowMajor_val_one, Shape.rowMajor_val_two]; show p.val = p.val * 1 + 0; omega)]
  refine (Ideal.multiReduction_add_single v 0x00000000#32 reduces_S4000x128_S4000 fmt32 acc0 (ix1 p)).trans ?_
  refine Finset.sum_congr rfl fun k _ => congrArg v ?_
  funext a
  match a with
  | ⟨0, _⟩ => rfl
  | ⟨1, _⟩ => rfl

/-! ## The normalisation of a block of pre-activations -/

/-- What the body does to its 4000 × 128 block of pre-activations `a`, with the scale row `g` and the shift row `b`: the
    row means, the deviations, the row variances, their reciprocal square roots with ε added, scale, shift, and the
    maximum with zero. -/
def normBlock (a : FVec Ideal S4000x128 .f32) (g b : FVec Ideal S1x128 .f32) : FVec Ideal S4000x128 .f32 :=
  let mu : FVec Ideal S4000x1 .f32 := divf (rowSums a) (broadcast S4000x1 (Scalar.ofBits (F := Ideal) .f32 0x43000000#32))
  let d : FVec Ideal S4000x128 .f32 := subf a (broadcastTo S4000x128 mu broadcasts_S4000x1_S4000x128)
  let var : FVec Ideal S4000x1 .f32 := divf (rowSums (mulf d d)) (broadcast S4000x1 (Scalar.ofBits (F := Ideal) .f32 0x43000000#32))
  let r : FVec Ideal S4000x1 .f32 := rsqrt (addf var (broadcast S4000x1 (Scalar.ofBits (F := Ideal) .f32 0x3727C5AC#32)))
  maximumf
    (addf (mulf (mulf d (broadcastTo S4000x128 r broadcasts_S4000x1_S4000x128)) (broadcastTo S4000x128 g broadcasts_S1x128_S4000x128))
      (broadcastTo S4000x128 b broadcasts_S1x128_S4000x128))
    (broadcast S4000x128 (Scalar.ofBits (F := Ideal) .f32 0x00000000#32))

/-- The normalised block at `(p, q)` is `rowNorm` of row `p`. -/
theorem normBlock_entry (a : FVec Ideal S4000x128 .f32) (g b : FVec Ideal S1x128 .f32) (p : Fin 4000) (q : Fin 128) :
    normBlock a g b (ix2 p q) = rowNorm (fun j => a (ix2 p j)) (fun j => g (ix2 (0 : Fin 1) j)) (fun j => b (ix2 (0 : Fin 1) j)) q := by
  unfold normBlock
  simp only [maximumf_apply, addf_apply, mulf_apply, subf_apply, divf_apply, broadcast_apply, rowBcast_entry, colBcast_entry,
    rowSums_entry, rsqrt_entry]
  rfl

/-! ## The payload at an entry -/

/-- The body's payload is the normalisation of the block of pre-activations: the product of the loaded features with the
    loaded weights onto a zero accumulator, plus the bias row. -/
theorem pay_eq (x0 : Vec Ideal S4000x128 .f32) (x1 : Vec Ideal S128x128 .f32) (x2 x3 x4 : Vec Ideal S1x128 .f32) :
    k0_pay1 (F := Ideal) x0 x1 x2 x3 x4
      = normBlock
          (addf (matmul dot_S4000x128_S128x128_S4000x128_1_0_0_1_n_n none
              (truncf .bf16 (shapeCast S4000x128 x0 shapeCasts_S4000x128_S4000x128) bitsLt_bf16_f32) (truncf .bf16 x1 bitsLt_bf16_f32)
              (constant (F := Ideal) S4000x128 .f32 0x00000000#32))
            (broadcastTo S4000x128 (shapeCast S1x128 x2 shapeCasts_S1x128_S1x128) broadcasts_S1x128_S4000x128))
          (shapeCast S1x128 x3 shapeCasts_S1x128_S1x128) (shapeCast S1x128 x4 shapeCasts_S1x128_S1x128) := rfl

/-- THE BODY'S RESULT AT `(p, q)`: the normalised row `p` of the pre-activations `x0 · x1 + x2`, scaled by `x3` and shifted
    by `x4`, rectified. -/
theorem pay_entry (x0 : Vec Ideal S4000x128 .f32) (x1 : Vec Ideal S128x128 .f32) (x2 x3 x4 : Vec Ideal S1x128 .f32)
    (p : Fin 4000) (q : Fin 128) :
    k0_pay1 (F := Ideal) x0 x1 x2 x3 x4 (ix2 p q)
      = rowNorm (fun j => (∑ k : Fin 128, x0 (ix2 p k) * x1 (ix2 k j)) + x2 (ix2 (0 : Fin 1) j))
          (fun j => x3 (ix2 (0 : Fin 1) j)) (fun j => x4 (ix2 (0 : Fin 1) j)) q := by
  rw [pay_eq, normBlock_entry]
  simp only [addf_apply, matmul_entry, rowBcast_entry, truncf_apply, shapeCast_self]

end Cert.KernelIdeal.Body

end
-- ==== Proof.KernelArray.lean ====
/-
  The kernel's output array after its run, as one function of the arrays the region finds.

  The grid has 25 points; point `t` stages rows `4000·t … 4000·t + 3999` of the aggregated features (all 128 columns),
  the whole weights, and the bias, scale and shift rows, and writes back rows `4000·t … 4000·t + 3999` of the output.
  So what point `t` writes is block `t` of one whole-array function `preact` → `RowNorm.normRows`: row `n` of the output is
  the normalised row `n` of `agg · W + b`. The 25 blocks tile the 100000 rows, so the array ends at that function.
-/
import proofs.«121900_j12635793785486_2_alg».proof.Proof.Gen.KernelIdeal.Value
import proofs.«121900_j12635793785486_2_alg».proof.Proof.KernelBody

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.RowNorm
open Idealize.ShloMosaic.Pipeline (Dat)

variable (m : (ℓ : Loc nD τ sig) → Buf (Elt Ideal) ℓ) (ρ : Dev nD → PrngReg)

/-- The pre-activations: the aggregated features times the weights, plus the bias row. -/
def preact (A : S100000x128.Idx → EReal) (W : S128x128.Idx → EReal) (b : S1x128.Idx → EReal) : S100000x128.Idx → EReal :=
  fun i => (∑ k : Fin 128, A (ix2 (i 0) k) * W (ix2 k (i 1))) + b (ix2 (0 : Fin 1) (i 1))

/-- The output array: every row of the pre-activations normalised, scaled by `g`, shifted by `be`, rectified. -/
def outArr (A : S100000x128.Idx → EReal) (W : S128x128.Idx → EReal) (b g be : S1x128.Idx → EReal) : S100000x128.Idx → EReal :=
  normRows (preact A W b) (fun k => g (ix2 (0 : Fin 1) k)) (fun k => be (ix2 (0 : Fin 1) k))

theorem hz : (![0, 0] : Fin 2 → Nat) = fun _ => 0 := funext fun a => by fin_cases a <;> rfl

/-- The printed index maps over the 25 grid points: the feature and output windows move down one block of rows per point,
    the four other windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 2000000 in
/-- For ANY arrays: the body's result on point `t`'s blocks of them is block `t` of `outArr` of them. Point `t` reads rows
    `4000·t + p` of the features and block (0, 0) of everything else, and writes rows `4000·t + p` of the output. -/
theorem out_block (t : Fin cfg0.N) (A : S100000x128.Idx → EReal) (W : S128x128.Idx → EReal) (B G Be : S1x128.Idx → EReal) :
    (cfg0.win 5).cut (grid0.coords t)
        (out0_5 (F := Ideal) (((cfg0.win 0).blk t).view.read (Elt Ideal) A) (((cfg0.win 1).blk t).view.read (Elt Ideal) W)
          (((cfg0.win 2).blk t).view.read (Elt Ideal) B) (((cfg0.win 3).blk t).view.read (Elt Ideal) G)
          (((cfg0.win 4).blk t).view.read (Elt Ideal) Be))
      = ((cfg0.win 5).blk t).view.read (Elt Ideal) (outArr A W B G Be) := by
  unfold out0_5
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 4000) (q : Fin 128), j = ix2 p q := ⟨j 0, j 1, eq_ix2 j⟩
  show k0_pay1 (F := Ideal) (fun y : S4000x128.Idx => A (((cfg0.win 0).blk t).view.emb y)) (fun y : S128x128.Idx => W (((cfg0.win 1).blk t).view.emb y))
      (fun y : S1x128.Idx => B (((cfg0.win 2).blk t).view.emb y)) (fun y : S1x128.Idx => G (((cfg0.win 3).blk t).view.emb y))
      (fun y : S1x128.Idx => Be (((cfg0.win 4).blk t).view.emb y)) (ix2 p q)
    = outArr A W B G Be (((cfg0.win 5).blk t).view.emb (ix2 p q))
  refine (Body.pay_entry (fun y : S4000x128.Idx => A (((cfg0.win 0).blk t).view.emb y)) (fun y : S128x128.Idx => W (((cfg0.win 1).blk t).view.emb y))
      (fun y : S1x128.Idx => B (((cfg0.win 2).blk t).view.emb y)) (fun y : S1x128.Idx => G (((cfg0.win 3).blk t).view.emb y))
      (fun y : S1x128.Idx => Be (((cfg0.win 4).blk t).view.emb y)) p q).trans ?_
  have ht : t.val < 25 := t.isLt
  obtain ⟨n, hnv⟩ : ∃ n : Fin 100000, n.val = t.val * 4000 + p.val := ⟨⟨t.val * 4000 + p.val, by have := p.isLt; omega⟩, rfl⟩
  have h5 : (((cfg0.win 5).blk t).view.emb (ix2 p q) : S100000x128.Idx) = ix2 n q := by
    funext a; apply Fin.ext
    match a with
    | ⟨0, _⟩ => show win0_5.index t (0 : Fin 2) * 4000 + 1 * p.val = n.val; omega
    | ⟨1, _⟩ => show win0_5.index t (1 : Fin 2) * 128 + 1 * q.val = q.val; omega
  have h0 : ∀ k : Fin 128, (((cfg0.win 0).blk t).view.emb (ix2 p k) : S100000x128.Idx) = ix2 n k := by
    intro k; funext a; apply Fin.ext
    match a with
    | ⟨0, _⟩ => show win0_0.index t (0 : Fin 2) * 4000 + 1 * p.val = n.val; omega
    | ⟨1, _⟩ => show win0_0.index t (1 : Fin 2) * 128 + 1 * k.val = k.val; omega
  have hw : ∀ (k j : Fin 128), (((cfg0.win 1).blk t).view.emb (ix2 k j) : S128x128.Idx) = ix2 k j := by
    intro k j; funext a; apply Fin.ext
    match a with
    | ⟨0, _⟩ => show win0_1.index t (0 : Fin 2) * 128 + 1 * k.val = k.val; omega
    | ⟨1, _⟩ => show win0_1.index t (1 : Fin 2) * 128 + 1 * j.val = j.val; omega
  have h2 : ∀ (j : Fin 128), (((cfg0.win 2).blk t).view.emb (ix2 (0 : Fin 1) j) : S1x128.Idx) = ix2 (0 : Fin 1) j := by
    intro j; funext a; apply Fin.ext
    match a with
    | ⟨0, _⟩ => show win0_2.index t (0 : Fin 2) * 1 + 1 * 0 = 0; omega
    | ⟨1, _⟩ => show win0_2.index t (1 : Fin 2) * 128 + 1 * j.val = j.val; omega
  have h3 : ∀ (j : Fin 128), (((cfg0.win 3).blk t).view.emb (ix2 (0 : Fin 1) j) : S1x128.Idx) = ix2 (0 : Fin 1) j := by
    intro j; funext a; apply Fin.ext
    match a with
    | ⟨0, _⟩ => show win0_3.index t (0 : Fin 2) * 1 + 1 * 0 = 0; omega
    | ⟨1, _⟩ => show win0_3.index t (1 : Fin 2) * 128 + 1 * j.val = j.val; omega
  have h4 : ∀ (j : Fin 128), (((cfg0.win 4).blk t).view.emb (ix2 (0 : Fin 1) j) : S1x128.Idx) = ix2 (0 : Fin 1) j := by
    intro j; funext a; apply Fin.ext
    match a with
    | ⟨0, _⟩ => show win0_4.index t (0 : Fin 2) * 1 + 1 * 0 = 0; omega
    | ⟨1, _⟩ => show win0_4.index t (1 : Fin 2) * 128 + 1 * j.val = j.val; omega
  rw [h5]
  simp only [h0, hw, h2, h3, h4]
  rfl

/-- WHAT POINT `t` WRITES BACK is block `t` of `outArr` of the arrays as the region finds them. -/
theorem flushed_eq (c : Dev nD) (t : Fin cfg0.N) :
    (dats m 0 c).flushed 5 t = ((cfg0.win 5).blk t).view.read (Elt Ideal)
      (outArr (V m c main_v43) (V m c main_arg2) (V m c main_v44) (V m c main_v45) (V m c main_v46)) := by
  rw [Value.flushed5]
  exact out_block t (V m c main_v43) (V m c main_arg2) (V m c main_v44) (V m c main_v45) (V m c main_v46)

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v47).slice (win0_5.rect t)).set ↔ _
  rw [View.set_slice_whole, Rect.mem_set_unit]
  exact Iff.rfl

/-- Every index of the output array is in some point's block: row `r` is in the block of point `r / 4000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨e00, e01, e10, e11, e20, e21, e30, e31, e40, e41, e50, e51⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE ARRAY after the run. -/
theorem final (c : Dev nD) : (dats m 0 c).arrAt 5 cfg0.N
    = outArr (V m c main_v43) (V m c main_arg2) (V m c main_v44) (V m c main_v45) (V m c main_v46) :=
  (dats m 0 c).arrAt_eq_of_cover 5 _ (fun t _ => flushed_eq m c t) cover

/-- The kernel's run with its output array read: every weakly fair execution ends with the output at `outArr` of the
    arrays the region found and the arguments unchanged. -/
theorem run : θ_run defs (onTc (τ := τ) (main (F := Ideal))) ⟨m, fun _ => 0, ρ⟩ fun r => ∀ c : Dev nD,
      r.2.mem ((c : Thread nD τ).loc main_v47) = outArr (V m c main_v43) (V m c main_arg2) (V m c main_v44) (V m c main_v45) (V m c main_v46)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Arr

end
-- ==== Proof.KernelAgg.lean ====
/-
  What the kernel's region finds in its operand arrays: the host operations that run before the launch.

  The aggregate operand is the scatter-add, into a zero array and at the destination indices, of the edges' messages:
  the source rows of `x` gathered at the source indices, each times its edge's weight. The index arrays and the weight
  array are the same terms of the edge list as the reference program computes (the two programs share that prefix
  operation for operation), so they are stated here by the reference's names for them. The bias, scale and shift
  operands are the length-128 arguments recast as 1 × 128 rows.
-/
import proofs.«121900_j12635793785486_2_alg».proof.Proof.Gen.KernelIdeal.Frame
import proofs.«121900_j12635793785486_2_alg».proof.Proof.ReadPatched
import Idealize.ShloMosaic.Lib.StableHlo.Run
import Idealize.ShloMosaic.Lib.ValueLayout
import Idealize.ShloMosaic.Lib.ValueIdx

set_option maxRecDepth 16384

noncomputable section

namespace Cert.KernelIdeal.Agg

open Cert.KernelIdeal Cert.KernelIdeal.Gen Idealize.ShloMosaic Idealize.ShloMosaic.TcCoe Idealize.SL.Sem Idealize.ShloMosaic.StableHlo
open Idealize.ShloMosaic.ValueIdx

variable [Cert.KernelIdeal.Facts] [Cert.ReferenceIdeal.Facts]
variable (m : (ℓ : Loc nD τ sig) → Buf (Elt Ideal) ℓ)

/-! ## One operation at a time

Each buffer the region finds is its operation applied to the buffers that operation reads; where a buffer's whole chain
of operations is the reference program's, it is the reference's term of the edge list. -/

set_option maxHeartbeats 4000000 in
/-- The zero array the aggregate starts from. -/
theorem zero_eq (c : Dev nD) : (V m c main_v41 : S100000x128.Idx → EReal) = Cert.ReferenceIdeal.ReadP.val_main_v42 (F := Ideal) := by
  dsimp only [V]
  simp only [hostOps0, hostOps0_1, hostOps0_2, List.flatten_cons, List.flatten_nil, List.append_nil, List.cons_append, List.nil_append]
  after_results_simp <;> rfl

set_option maxHeartbeats 4000000 in
/-- The destination indices, one row per edge (self-loops appended). -/
theorem dst_eq (c : Dev nD) : (V m c main_v42 : S1700000x1.Idx → BitVec 32) = Cert.ReferenceIdeal.ReadP.val_main_v43 (F := Ideal) (m ((c : Thread nD τ).loc main_arg1)) := by
  dsimp only [V]
  simp only [hostOps0, hostOps0_1, hostOps0_2, List.flatten_cons, List.flatten_nil, List.append_nil, List.cons_append, List.nil_append]
  after_results_simp <;> rfl

set_option maxHeartbeats 4000000 in
/-- The source row indices, negative ones wrapped, one row per edge. -/
theorem src_eq (c : Dev nD) : (V m c main_v36 : S1700000x1.Idx → BitVec 32) = Cert.ReferenceIdeal.ReadP.val_main_v37 (F := Ideal) (m ((c : Thread nD τ).loc main_arg1)) := by
  dsimp only [V]
  simp only [hostOps0, hostOps0_1, hostOps0_2, List.flatten_cons, List.flatten_nil, List.append_nil, List.cons_append, List.nil_append]
  after_results_simp <;> rfl

set_option maxHeartbeats 4000000 in
/-- Where the degree is positive. -/
theorem degPos_eq (c : Dev nD) : (V m c main_v12 : S100000.Idx → BitVec 1) = Cert.ReferenceIdeal.ReadP.val_main_v12 (F := Ideal) (m ((c : Thread nD τ).loc main_arg1)) := by
  dsimp only [V]
  simp only [hostOps0, hostOps0_1, hostOps0_2, List.flatten_cons, List.flatten_nil, List.append_nil, List.cons_append, List.nil_append]
  after_results_simp <;> rfl

set_option maxHeartbeats 4000000 in
/-- The reciprocal square root of the degree. -/
theorem degRsqrt_eq (c : Dev nD) : (V m c main_v13 : S100000.Idx → EReal) = Cert.ReferenceIdeal.ReadP.val_main_v13 (F := Ideal) (m ((c : Thread nD τ).loc main_arg1)) := by
  dsimp only [V]
  simp only [hostOps0, hostOps0_1, hostOps0_2, List.flatten_cons, List.flatten_nil, List.append_nil, List.cons_append, List.nil_append]
  after_results_simp <;> rfl

set_option maxHeartbeats 4000000 in
/-- The zero the guarded reciprocal square root falls back to. -/
theorem degZero_eq (c : Dev nD) : (V m c main_v14 : S100000.Idx → EReal) = Cert.ReferenceIdeal.ReadP.val_main_v14 (F := Ideal) := by
  dsimp only [V]
  simp only [hostOps0, hostOps0_1, hostOps0_2, List.flatten_cons, List.flatten_nil, List.append_nil, List.cons_append, List.nil_append]
  after_results_simp <;> rfl

set_option maxHeartbeats 4000000 in
/-- The source indices into the degree vector. -/
theorem srcIdx1_eq (c : Dev nD) : (V m c main_v21 : S1700000x1.Idx → BitVec 32) = Cert.ReferenceIdeal.ReadP.val_main_v21 (F := Ideal) (m ((c : Thread nD τ).loc main_arg1)) := by
  dsimp only [V]
  simp only [hostOps0, hostOps0_1, hostOps0_2, List.flatten_cons, List.flatten_nil, List.append_nil, List.cons_append, List.nil_append]
  after_results_simp <;> rfl

set_option maxHeartbeats 4000000 in
/-- The destination indices into the degree vector. -/
theorem dstIdx1_eq (c : Dev nD) : (V m c main_v28 : S1700000x1.Idx → BitVec 32) = Cert.ReferenceIdeal.ReadP.val_main_v28 (F := Ideal) (m ((c : Thread nD τ).loc main_arg1)) := by
  dsimp only [V]
  simp only [hostOps0, hostOps0_1, hostOps0_2, List.flatten_cons, List.flatten_nil, List.append_nil, List.cons_append, List.nil_append]
  after_results_simp <;> rfl

/-- The select inside the outlined `where`, with the call's typed references peeled: their casts are along equations that
    hold by computation. -/
theorem sel_peel (W : (⟨S100000, .i1⟩ : BufTy).Contents (Elt Ideal)) (U Vv : (⟨S100000, .f32⟩ : BufTy).Contents (Elt Ideal)) :
    (TRef.of (sig := sig) (T := ⟨S100000, .f32⟩) main_v15).toBuf (Val := Elt Ideal)
        (select ((TRef.of (sig := sig) (T := ⟨S100000, .i1⟩) main_v12).ofBuf (Val := Elt Ideal) W)
          ((TRef.of (sig := sig) (T := ⟨S100000, .f32⟩) main_v13).ofBuf (Val := Elt Ideal) U)
          ((TRef.of (sig := sig) (T := ⟨S100000, .f32⟩) main_v14).ofBuf (Val := Elt Ideal) Vv))
      = select W U Vv := rfl

set_option maxHeartbeats 4000000 in
/-- The guarded reciprocal square root of the degree: a select on the positivity test. -/
theorem dinvSel_eq (c : Dev nD) : (V m c main_v15 : S100000.Idx → EReal) = select (V m c main_v12 : S100000.Idx → BitVec 1) (V m c main_v13 : S100000.Idx → EReal) (V m c main_v14 : S100000.Idx → EReal) := by
  dsimp only [V]
  simp only [hostOps0, hostOps0_1, hostOps0_2, List.flatten_cons, List.flatten_nil, List.append_nil, List.cons_append, List.nil_append]
  after_results_simp
  all_goals exact sel_peel _ _ _

set_option maxHeartbeats 4000000 in
/-- The source end's factor of an edge's weight. -/
theorem wSrc_eq (c : Dev nD) : (V m c main_v22 : S1700000.Idx → EReal) = Host.gather gather_S100000_S1700000x1_S1700000_n_0_n_n_0_1_1 (V m c main_v15 : S100000.Idx → EReal) (V m c main_v21 : S1700000x1.Idx → BitVec 32) := by
  dsimp only [V]
  simp only [hostOps0, hostOps0_1, hostOps0_2, List.flatten_cons, List.flatten_nil, List.append_nil, List.cons_append, List.nil_append]
  after_results_simp <;> rfl

set_option maxHeartbeats 4000000 in
/-- The destination end's factor of an edge's weight. -/
theorem wDst_eq (c : Dev nD) : (V m c main_v29 : S1700000.Idx → EReal) = Host.gather gather_S100000_S1700000x1_S1700000_n_0_n_n_0_1_1 (V m c main_v15 : S100000.Idx → EReal) (V m c main_v28 : S1700000x1.Idx → BitVec 32) := by
  dsimp only [V]
  simp only [hostOps0, hostOps0_1, hostOps0_2, List.flatten_cons, List.flatten_nil, List.append_nil, List.cons_append, List.nil_append]
  after_results_simp <;> rfl

set_option maxHeartbeats 4000000 in
/-- An edge's weight: the product of its two ends' factors. -/
theorem wMul_eq (c : Dev nD) : (V m c main_v30 : S1700000.Idx → EReal) = mulf (F := Ideal) (φ := .f32) (V m c main_v22 : S1700000.Idx → EReal) (V m c main_v29 : S1700000.Idx → EReal) := by
  dsimp only [V]
  simp only [hostOps0, hostOps0_1, hostOps0_2, List.flatten_cons, List.flatten_nil, List.append_nil, List.cons_append, List.nil_append]
  after_results_simp <;> rfl

set_option maxHeartbeats 4000000 in
/-- The weights as a column. -/
theorem wCol_eq (c : Dev nD) : (V m c main_v38 : S1700000x1.Idx → EReal) = broadcastInDim S1700000x1 ![0] bcast_S1700000_S1700000x1_0 (V m c main_v30 : S1700000.Idx → EReal) := by
  dsimp only [V]
  simp only [hostOps0, hostOps0_1, hostOps0_2, List.flatten_cons, List.flatten_nil, List.append_nil, List.cons_append, List.nil_append]
  after_results_simp <;> rfl

set_option maxHeartbeats 4000000 in
/-- The weights across the 128 features. -/
theorem wAll_eq (c : Dev nD) : (V m c main_v39 : S1700000x128.Idx → EReal) = broadcastInDim S1700000x128 ![0, 1] bcast_S1700000x1_S1700000x128_0_1 (V m c main_v38 : S1700000x1.Idx → EReal) := by
  dsimp only [V]
  simp only [hostOps0, hostOps0_1, hostOps0_2, List.flatten_cons, List.flatten_nil, List.append_nil, List.cons_append, List.nil_append]
  after_results_simp <;> rfl

set_option maxHeartbeats 4000000 in
/-- The source rows of the features, one per edge. -/
theorem rows_eq (c : Dev nD) : (V m c main_v37 : S1700000x128.Idx → EReal) = Host.gather gather_S100000x128_S1700000x1_S1700000x128_1_0_n_n_0_1_1128 (V m c main_arg0 : S100000x128.Idx → EReal) (V m c main_v36 : S1700000x1.Idx → BitVec 32) := by
  dsimp only [V]
  simp only [hostOps0, hostOps0_1, hostOps0_2, List.flatten_cons, List.flatten_nil, List.append_nil, List.cons_append, List.nil_append]
  after_results_simp <;> rfl

set_option maxHeartbeats 4000000 in
/-- The messages: each edge's source row times its weight. -/
theorem msgs_eq (c : Dev nD) : (V m c main_v40 : S1700000x128.Idx → EReal) = mulf (F := Ideal) (φ := .f32) (V m c main_v37 : S1700000x128.Idx → EReal) (V m c main_v39 : S1700000x128.Idx → EReal) := by
  dsimp only [V]
  simp only [hostOps0, hostOps0_1, hostOps0_2, List.flatten_cons, List.flatten_nil, List.append_nil, List.cons_append, List.nil_append]
  after_results_simp <;> rfl

set_option maxHeartbeats 4000000 in
/-- The aggregate: the messages added at their destination rows. -/
theorem scat_eq (c : Dev nD) : (V m c main_v43 : S100000x128.Idx → EReal) = Host.scatterAdd (F := Ideal) (φ := .f32) scatter_S100000x128_S1700000x1_S1700000x128_1_0_0_1 (V m c main_v41 : S100000x128.Idx → EReal) (V m c main_v42 : S1700000x1.Idx → BitVec 32) (V m c main_v40 : S1700000x128.Idx → EReal) := by
  dsimp only [V]
  simp only [hostOps0, hostOps0_1, hostOps0_2, List.flatten_cons, List.flatten_nil, List.append_nil, List.cons_append, List.nil_append]
  after_results_simp <;> rfl

/-! ## Composed -/

/-- The guarded reciprocal square root of the degree is the reference's. -/
theorem dinv_eq (c : Dev nD) : (V m c main_v15 : S100000.Idx → EReal) = Cert.ReferenceIdeal.ReadP.val_main_v15 (F := Ideal) (m ((c : Thread nD τ).loc main_arg1)) := by
  rw [dinvSel_eq, degPos_eq, degRsqrt_eq, degZero_eq]
  rfl

/-- The edge weights are the reference's. -/
theorem wgt_eq (c : Dev nD) : (V m c main_v30 : S1700000.Idx → EReal) = Cert.ReferenceIdeal.ReadP.val_main_v30 (F := Ideal) (m ((c : Thread nD τ).loc main_arg1)) := by
  rw [wMul_eq, wSrc_eq, wDst_eq, dinv_eq, srcIdx1_eq, dstIdx1_eq]
  rfl

/-- The weights across the features are the reference's. -/
theorem wAll_ref (c : Dev nD) : (V m c main_v39 : S1700000x128.Idx → EReal) = Cert.ReferenceIdeal.ReadP.val_main_v40 (F := Ideal) (m ((c : Thread nD τ).loc main_arg1)) := by
  rw [wAll_eq, wCol_eq, wgt_eq]
  rfl

/-- THE AGGREGATE OPERAND as the region finds it. -/
theorem V_agg (c : Dev nD) :
    (V m c main_v43 : S100000x128.Idx → EReal)
      = Host.scatterAdd (F := Ideal) (φ := .f32) scatter_S100000x128_S1700000x1_S1700000x128_1_0_0_1
          (Cert.ReferenceIdeal.ReadP.val_main_v42 (F := Ideal))
          (Cert.ReferenceIdeal.ReadP.val_main_v43 (F := Ideal) (m ((c : Thread nD τ).loc main_arg1)))
          (mulf (F := Ideal) (φ := .f32) (Host.gather gather_S100000x128_S1700000x1_S1700000x128_1_0_n_n_0_1_1128 (m ((c : Thread nD τ).loc main_arg0))
              (Cert.ReferenceIdeal.ReadP.val_main_v37 (F := Ideal) (m ((c : Thread nD τ).loc main_arg1))))
            (Cert.ReferenceIdeal.ReadP.val_main_v40 (F := Ideal) (m ((c : Thread nD τ).loc main_arg1)))) := by
  rw [scat_eq, zero_eq, dst_eq, msgs_eq, rows_eq, src_eq, wAll_ref, V_main_arg0]

set_option maxHeartbeats 4000000 in
/-- The bias operand: the bias argument recast as a 1 × 128 row. -/
theorem V_bias (c : Dev nD) (k : Fin 128) :
    (V m c main_v44 : S1x128.Idx → EReal) (ix2 (0 : Fin 1) k) = (m ((c : Thread nD τ).loc main_arg3) : S128.Idx → EReal) (ix1 k) := by
  have e : (V m c main_v44 : S1x128.Idx → EReal) = shapeCast S1x128 (m ((c : Thread nD τ).loc main_arg3) : S128.Idx → EReal) shapeCasts_S128_S1x128 := by
    dsimp only [V]
    simp only [hostOps0, hostOps0_1, hostOps0_2, List.flatten_cons, List.flatten_nil, List.append_nil, List.cons_append, List.nil_append]
    after_results_simp <;> rfl
  rw [e]
  exact shapeCast_a_1a_apply _ shapeCasts_S128_S1x128 (0 : Fin 1) k

set_option maxHeartbeats 4000000 in
/-- The scale operand: the scale argument recast as a 1 × 128 row. -/
theorem V_scale (c : Dev nD) (k : Fin 128) :
    (V m c main_v45 : S1x128.Idx → EReal) (ix2 (0 : Fin 1) k) = (m ((c : Thread nD τ).loc main_arg4) : S128.Idx → EReal) (ix1 k) := by
  have e : (V m c main_v45 : S1x128.Idx → EReal) = shapeCast S1x128 (m ((c : Thread nD τ).loc main_arg4) : S128.Idx → EReal) shapeCasts_S128_S1x128 := by
    dsimp only [V]
    simp only [hostOps0, hostOps0_1, hostOps0_2, List.flatten_cons, List.flatten_nil, List.append_nil, List.cons_append, List.nil_append]
    after_results_simp <;> rfl
  rw [e]
  exact shapeCast_a_1a_apply _ shapeCasts_S128_S1x128 (0 : Fin 1) k

set_option maxHeartbeats 4000000 in
/-- The shift operand: the shift argument recast as a 1 × 128 row. -/
theorem V_shift (c : Dev nD) (k : Fin 128) :
    (V m c main_v46 : S1x128.Idx → EReal) (ix2 (0 : Fin 1) k) = (m ((c : Thread nD τ).loc main_arg5) : S128.Idx → EReal) (ix1 k) := by
  have e : (V m c main_v46 : S1x128.Idx → EReal) = shapeCast S1x128 (m ((c : Thread nD τ).loc main_arg5) : S128.Idx → EReal) shapeCasts_S128_S1x128 := by
    dsimp only [V]
    simp only [hostOps0, hostOps0_1, hostOps0_2, List.flatten_cons, List.flatten_nil, List.append_nil, List.cons_append, List.nil_append]
    after_results_simp <;> rfl
  rw [e]
  exact shapeCast_a_1a_apply _ shapeCasts_S128_S1x128 (0 : Fin 1) k

end Cert.KernelIdeal.Agg

end
-- ==== Proof.RowIndexing.lean ====
/-
  Row indexing of a `[100000, 128]` array by a `[1700000, 1]` array of start indices, read at an index.

  Two facts about StableHLO's `gather` and `scatter` with the dimension numbers that `x[idx]` (rows of a table)
  and `x.at[idx].add(u)` (accumulating rows into a table) lower to:

  * the gather's result element `(e, k)` is the operand's element `(r, k)` where `r` is the start index
    `idx[e, 0]` read as a signed integer and clamped into `[0, 99999]` (`gather_rows_apply`);
  * the scatter-add's result element `(n, q)` is the operand's element plus the sum of the update elements
    `(e, q)` over the edges `e` whose scatter index `idx[e, 0]`, read signed and NOT clamped, equals `n`
    (`scatterAdd_rows_apply`); an edge whose index is out of range contributes to no row.

  Both are proved for the dimension-number records written as structure literals with an arbitrary
  well-formedness proof, so they apply to any record that is definitionally that literal.
-/
import Idealize.ShloMosaic.PureOps.Ideal
import Idealize.ShloMosaic.Lib.ValueIdx

noncomputable section

open scoped BigOperators

namespace Cert.RowIndexing

open Idealize.ShloMosaic Idealize.ShloMosaic.ValueIdx

/-! ## The row gather -/

/-- The dimension numbers of the row gather: operand `[100000, 128]`, start indices `[1700000, 1]`, result
    `[1700000, 128]`; operand axis 0 is collapsed and is the one the (single-component) start index names, the
    result's axis 1 is the offset axis over operand axis 1, and a slice is one whole row `[1, 128]`. -/
abbrev rowGather
    (wf : GatherDims.WF ⟨2, ![100000, 128]⟩ ⟨2, ![1700000, 1]⟩ ⟨2, ![1700000, 128]⟩ [1] [0] [] [0] [] 1 ![1, 128]) :
    GatherDims ⟨2, ![100000, 128]⟩ ⟨2, ![1700000, 1]⟩ ⟨2, ![1700000, 128]⟩ where
  offsetDims := [1]
  collapsedSliceDims := [0]
  operandBatchingDims := []
  startIndicesBatchingDims := []
  startIndexMap := [0]
  indexVectorDim := 1
  sliceSizes := ![1, 128]
  wf := wf

/-- The row edge `e` reads: its start index `idx[e, 0]`, read signed and clamped into `[0, 99999]`
    (negative indices clamp to row 0, indices past the end to the last row). -/
def srcRow {w : Nat} (idx : IVec ⟨2, ![1700000, 1]⟩ w) (e : Fin 1700000) : Fin 100000 :=
  ⟨min (idx (ix2 e (0 : Fin 1))).toInt.toNat 99999, by omega⟩

/-- On operand axis 0 the gather's operand index is the clamped start index: no batching coordinate, and no offset
    coordinate since the axis is collapsed. -/
theorem rowGather_operand_row {w : Nat}
    (wf : GatherDims.WF ⟨2, ![100000, 128]⟩ ⟨2, ![1700000, 1]⟩ ⟨2, ![1700000, 128]⟩ [1] [0] [] [0] [] 1 ![1, 128])
    (idx : IVec ⟨2, ![1700000, 1]⟩ w) (e : Fin 1700000) (k : Fin 128) :
    (rowGather wf).start (ix2 e k) idx 0 + (rowGather wf).batchCoord (ix2 e k) 0 + (rowGather wf).offCoord (ix2 e k) 0
      = (srcRow idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx (ix2 e k) ⟨List.idxOf (0 : Fin 2) (rowGather wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On operand axis 1 the start is 0 (the start index map does not name the axis) and the offset coordinate is the
    result's coordinate `k` on its offset axis. -/
theorem rowGather_operand_col {w : Nat}
    (wf : GatherDims.WF ⟨2, ![100000, 128]⟩ ⟨2, ![1700000, 1]⟩ ⟨2, ![1700000, 128]⟩ [1] [0] [] [0] [] 1 ![1, 128])
    (idx : IVec ⟨2, ![1700000, 1]⟩ w) (e : Fin 1700000) (k : Fin 128) :
    (rowGather wf).start (ix2 e k) idx 1 + (rowGather wf).batchCoord (ix2 e k) 1 + (rowGather wf).offCoord (ix2 e k) 1
      = k.val := by
  rw [GatherDims.batchCoord_eq_zero _ _ _ List.not_mem_nil]
  unfold GatherDims.start
  rw [dif_neg (show (1 : Fin 2) ∉ ([0] : List (Fin 2)) by decide)]
  unfold GatherDims.offCoord
  rw [dif_pos (show (1 : Fin 2) ∈ (rowGather wf).sKept from
    (GatherDims.mem_sKept _ _).mpr ⟨show (1 : Fin 2) ∉ ([0] : List (Fin 2)) by decide, List.not_mem_nil⟩)]
  simp only [Nat.zero_add, Nat.add_zero]
  rfl

/-- THE ROW GATHER READ AT `(e, k)`: element `k` of the operand's row `srcRow idx e`. -/
theorem gather_rows_apply {α : Type} {w : Nat}
    (wf : GatherDims.WF ⟨2, ![100000, 128]⟩ ⟨2, ![1700000, 1]⟩ ⟨2, ![1700000, 128]⟩ [1] [0] [] [0] [] 1 ![1, 128])
    (x : (⟨2, ![100000, 128]⟩ : Shape).Idx → α) (idx : IVec ⟨2, ![1700000, 1]⟩ w) (e : Fin 1700000) (k : Fin 128) :
    Host.gather (rowGather wf) x idx (ix2 e k) = x (ix2 (srcRow idx e) k) := by
  unfold Host.gather
  congr 1
  funext a
  match a with
  | ⟨0, _⟩ => exact Fin.ext (rowGather_operand_row wf idx e k)
  | ⟨1, _⟩ => exact Fin.ext (rowGather_operand_col wf idx e k)

/-! ## The row scatter-add -/

/-- The dimension numbers of the row scatter: operand `[100000, 128]`, scatter indices `[1700000, 1]`, updates
    `[1700000, 128]`; the updates' axis 1 is the window axis, operand axis 0 is inserted and is the one the
    (single-component) scatter index names. -/
abbrev rowScatter
    (wf : ScatterDims.WF ⟨2, ![100000, 128]⟩ ⟨2, ![1700000, 1]⟩ ⟨2, ![1700000, 128]⟩ [1] [0] [0] 1) :
    ScatterDims ⟨2, ![100000, 128]⟩ ⟨2, ![1700000, 1]⟩ ⟨2, ![1700000, 128]⟩ where
  updateWindowDims := [1]
  insertedWindowDims := [0]
  scatterDimsToOperandDims := [0]
  indexVectorDim := 1
  wf := wf

section
variable {w : Nat}
  (wf : ScatterDims.WF ⟨2, ![100000, 128]⟩ ⟨2, ![1700000, 1]⟩ ⟨2, ![1700000, 128]⟩ [1] [0] [0] 1)
  (idx : IVec ⟨2, ![1700000, 1]⟩ w) (e : Fin 1700000) (k : Fin 128)

/-- On operand axis 0 the window of update `(e, k)` starts at the scatter index `idx[e, 0]`, read signed and NOT
    clamped. -/
theorem rowScatter_start_row : (rowScatter wf).start (ix2 e k) idx 0 = (idx (ix2 e (0 : Fin 1))).toInt := by
  unfold ScatterDims.start
  rw [dif_pos (show (0 : Fin 2) ∈ (rowScatter wf).scatterDimsToOperandDims from List.mem_singleton.mpr rfl)]
  have hsi : (rowScatter wf).siIdx (ix2 e k) ⟨List.idxOf (0 : Fin 2) (rowScatter wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1 the window starts at 0: the scatter index has no component for it. -/
theorem rowScatter_start_col : (rowScatter wf).start (ix2 e k) idx 1 = 0 := by
  unfold ScatterDims.start
  rw [dif_neg (show (1 : Fin 2) ∉ ([0] : List (Fin 2)) by decide)]

/-- The window coordinate on the inserted operand axis 0 is 0. -/
theorem rowScatter_window_row : (rowScatter wf).window (ix2 e k) 0 = 0 := by
  unfold ScatterDims.window
  rw [dif_neg (show (0 : Fin 2) ∉ (rowScatter wf).sKept by
    simp [ScatterDims.sKept, Shape.kept, List.mem_filter])]

/-- The window coordinate on operand axis 1 is the update's coordinate `k` on its window axis. -/
theorem rowScatter_window_col : (rowScatter wf).window (ix2 e k) 1 = k.val := by
  unfold ScatterDims.window
  rw [dif_pos (show (1 : Fin 2) ∈ (rowScatter wf).sKept by
    simp [ScatterDims.sKept, Shape.kept, List.mem_filter, List.mem_finRange])]
  rfl

/-- WHERE AN UPDATE LANDS: update `(e, k)` lands at operand element `(n, q)` exactly when its scatter index, read
    signed, is `n` and `k = q`. (Result index = `(idx[e,0] + 0, 0 + k)`; it is in range on axis 1 always, on axis 0
    iff `0 ≤ idx[e,0] < 100000`, and an out-of-range update is dropped, so it lands at no `(n, q)`.) -/
theorem rowScatter_resultIdx_iff (n : Fin 100000) (q : Fin 128) :
    (rowScatter wf).resultIdx? (ix2 e k) idx = some (ix2 n q)
      ↔ ((idx (ix2 e (0 : Fin 1))).toInt = (n.val : Int) ∧ k = q) := by
  have hs0 := rowScatter_start_row wf idx e k
  have hs1 := rowScatter_start_col wf idx e k
  have hw0 := rowScatter_window_row wf e k
  have hw1 := rowScatter_window_col wf e k
  have hz0 : (⟨2, ![100000, 128]⟩ : Shape).size 0 = 100000 := rfl
  have hz1 : (⟨2, ![100000, 128]⟩ : Shape).size 1 = 128 := rfl
  unfold ScatterDims.resultIdx?
  constructor
  · intro h
    split at h
    · rename_i hc
      have hf := Option.some.inj h
      have h0 := congrArg Fin.val (congrFun hf 0)
      have h1 := congrArg Fin.val (congrFun hf 1)
      have c0 := hc 0
      have c1 := hc 1
      simp only [hs0, hs1, hw0, hw1] at h0 h1 c0 c1
      change _ = n.val at h0
      change _ = q.val at h1
      refine ⟨by omega, Fin.ext (by omega)⟩
    · exact absurd h (by simp)
  · rintro ⟨hn, rfl⟩
    have hc : ∀ a, 0 ≤ (rowScatter wf).start (ix2 e k) idx a + ((rowScatter wf).window (ix2 e k) a : Int) ∧
        (rowScatter wf).start (ix2 e k) idx a + ((rowScatter wf).window (ix2 e k) a : Int)
          < ((⟨2, ![100000, 128]⟩ : Shape).size a : Int) := by
      rw [Fin.forall_fin_two]
      rw [hs0, hs1, hw0, hw1, hz0, hz1, hn]
      have := n.isLt; have := k.isLt
      omega
    rw [dif_pos hc]
    congr 1
    funext a
    refine Fin.ext ?_
    match a with
    | ⟨0, _⟩ =>
      show ((rowScatter wf).start (ix2 e k) idx 0 + ((rowScatter wf).window (ix2 e k) 0 : Int)).toNat = n.val
      rw [hs0, hw0, hn]; omega
    | ⟨1, _⟩ =>
      show ((rowScatter wf).start (ix2 e k) idx 1 + ((rowScatter wf).window (ix2 e k) 1 : Int)).toNat = k.val
      rw [hs1, hw1]; omega

end

/-- THE ROW SCATTER-ADD READ AT `(n, q)`: the operand's element plus the sum, over the edges `e` whose scatter
    index is `n`, of element `q` of update row `e`. The update indices `j = (e, k)` that land at `(n, q)` are, by
    the characterization above, exactly the `(e, q)` with `idx[e,0] = n`; the sum is re-indexed along `j ↦ j 0`,
    `e ↦ (e, q)`. -/
theorem scatterAdd_rows_apply {w : Nat}
    (wf : ScatterDims.WF ⟨2, ![100000, 128]⟩ ⟨2, ![1700000, 1]⟩ ⟨2, ![1700000, 128]⟩ [1] [0] [0] 1)
    (x0 : (⟨2, ![100000, 128]⟩ : Shape).Idx → EReal) (idx : IVec ⟨2, ![1700000, 1]⟩ w)
    (upd : (⟨2, ![1700000, 128]⟩ : Shape).Idx → EReal) (n : Fin 100000) (q : Fin 128) :
    Ideal.hostScatterAdd (rowScatter wf) x0 idx upd (ix2 n q)
      = x0 (ix2 n q) + ∑ e ∈ Finset.univ.filter
          (fun e : Fin 1700000 => (idx (ix2 e (0 : Fin 1))).toInt = (n.val : Int)), upd (ix2 e q) := by
  unfold Ideal.hostScatterAdd
  refine congrArg (fun r : EReal => x0 (ix2 n q) + r) ?_
  refine Finset.sum_nbij' (fun (j : (⟨2, ![1700000, 128]⟩ : Shape).Idx) => (j 0 : Fin 1700000))
    (fun (e : Fin 1700000) => (ix2 e q : (⟨2, ![1700000, 128]⟩ : Shape).Idx)) ?_ ?_ ?_ ?_ ?_
  · intro j hj
    have h := (Finset.mem_filter.mp hj).2
    rw [eq_ix2 j] at h
    exact Finset.mem_filter.mpr
      ⟨Finset.mem_univ _, ((rowScatter_resultIdx_iff wf idx (j 0) (j 1) n q).mp h).1⟩
  · intro e' he
    exact Finset.mem_filter.mpr
      ⟨Finset.mem_univ _, (rowScatter_resultIdx_iff wf idx e' q n q).mpr ⟨(Finset.mem_filter.mp he).2, rfl⟩⟩
  · intro j hj
    have h := (Finset.mem_filter.mp hj).2
    rw [eq_ix2 j] at h
    have hq := ((rowScatter_resultIdx_iff wf idx (j 0) (j 1) n q).mp h).2
    subst hq
    exact (eq_ix2 j).symm
  · intro e' _
    rfl
  · intro j hj
    have h := (Finset.mem_filter.mp hj).2
    rw [eq_ix2 j] at h
    have hq := ((rowScatter_resultIdx_iff wf idx (j 0) (j 1) n q).mp h).2
    subst hq
    exact congrArg upd (eq_ix2 j)

end Cert.RowIndexing

end
-- ==== Proof.EdgeSum.lean ====
/-
  Sums of real entries on the extended reals.

  On the extended reals multiplication does not distribute over addition in general (⊤ and ⊥ may meet), but every
  identity of the real field holds among extended reals that are real numbers: the inclusion of ℝ carries products to
  products and finite sums to finite sums (`coe_sum`). So a weighted sum over edges of gathered rows, multiplied into a
  matrix column, is the weighted sum over edges of the rows' products with that column (`sum_exchange`): over ℝ this is
  distributivity and the exchange of two finite sums. Beside it: the reciprocal square root guarded by d > 0 is always
  a real number (`guarded_rsqrt_real`), and a product of two reals is real (`real_mul`).
-/
import Idealize.ShloMosaic.PureOps.Ideal
import Idealize.ShloMosaic.PureOps.Ideal.Laws

noncomputable section

namespace Cert.EdgeSum

open Finset Idealize.ShloMosaic

/-- The inclusion of ℝ into the extended reals carries a finite sum to the sum of the images: by induction on the
    index set, the empty sum being 0 and one more term splitting off by additivity of the inclusion. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ∑ₖ (∑ₑ x e k · w e) · W k = ∑ₑ (∑ₖ x e k · W k) · w e when all entries are real numbers: both sides are
    the image of the real double sum ∑ₑ ∑ₖ x e k · w e · W k, the left after distributing W k into the inner sum and
    exchanging the two sums, the right after distributing w e; each term agrees by commutativity. -/
theorem sum_exchange {E K : Type} [Fintype K] (S : Finset E) (xr : E → K → EReal) (w : E → EReal) (W : K → EReal)
    (hx : ∀ e k, ∃ r : ℝ, xr e k = (r : EReal)) (hw : ∀ e, ∃ r : ℝ, w e = (r : EReal))
    (hW : ∀ k, ∃ r : ℝ, W k = (r : EReal)) :
    ∑ k, (∑ e ∈ S, xr e k * w e) * W k = ∑ e ∈ S, (∑ k, xr e k * W k) * w e := by
  choose x' hx' using hx
  choose w' hw' using hw
  choose W' hW' using hW
  simp only [hx', hw', hW', ← EReal.coe_mul, ← coe_sum]
  congr 1
  simp only [Finset.sum_mul]
  rw [Finset.sum_comm]
  exact Finset.sum_congr rfl fun e _ => Finset.sum_congr rfl fun k _ => by ring

/-- The one-bit word of a Boolean is 1 exactly when the Boolean is true. -/
theorem ofBool_eq_one (b : Bool) : BitVec.ofBool b = 1#1 ↔ b = true := by cases b <;> decide

/-- The choice between the reciprocal square root of d (where d > 0) and the zero word (elsewhere) is a real number.
    Where d > 0: d is not ⊥; at d = ⊤ the reciprocal square root is 0; at a real r > 0 it is (√r)⁻¹, the two guards
    r < 0 and r = 0 of its definition both failing. Elsewhere the value is the zero word, which denotes 0. -/
theorem guarded_rsqrt_real (d : EReal) :
    ∃ r : ℝ, Scalar.select (Ideal.cmp .ogt d (Ideal.ofBits .f32 0x00000000#32)) (Ideal.rsqrt d)
      (Ideal.ofBits .f32 0x00000000#32) = (r : EReal) := by
  rw [Ideal.ofBits_zero_f32]
  unfold Scalar.select
  split
  · rename_i hc
    have hpos : 0 < d := by
      simp only [Ideal.cmp] at hc
      exact of_decide_eq_true ((ofBool_eq_one _).1 hc)
    induction d using EReal.rec with
    | bot => simp at hpos
    | coe r =>
      have hr : 0 < r := by exact_mod_cast hpos
      exact ⟨(Real.sqrt r)⁻¹, by rw [Ideal.rsqrt_coe, if_neg (not_lt.2 hr.le), if_neg hr.ne']⟩
    | top => exact ⟨0, by simp⟩
  · exact ⟨0, by simp⟩

/-- A product of two real numbers, taken among the extended reals, is a real number: the product of the two reals. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

end Cert.EdgeSum

end
-- ==== Proof.EdgeExchange.lean ====
/-
  Linearity of the weighted row scatter-add against a matrix product.

  A table `X : [100000, 128]`, a matrix `Wm : [128, 128]`, one source index, one destination index and one weight per
  edge (1700000 edges). "Aggregate then multiply": gather the source rows, weight them, scatter-add them into the
  destination rows of a zero table, then multiply the table by `Wm`. "Multiply then aggregate": multiply `X` by `Wm`
  first, then gather, weight and scatter-add. Entry `(n, j)` of either is a double sum over the edges into `n` and over
  the contracted coordinate `k`; the two orders of summation agree because every entry and every weight is a real
  number, among which the extended reals obey the laws of the real field (`agg_then_mul_eq`).
-/
import proofs.«121900_j12635793785486_2_alg».proof.Proof.RowIndexing
import proofs.«121900_j12635793785486_2_alg».proof.Proof.EdgeSum
import Idealize.ShloMosaic.PureOps.Ideal
import Idealize.ShloMosaic.Lib.ValueIdx

noncomputable section

open scoped BigOperators

namespace Cert.EdgeExchange

open Idealize.ShloMosaic Idealize.ShloMosaic.ValueIdx Cert.RowIndexing

/-- AGGREGATE THEN MULTIPLY = MULTIPLY THEN AGGREGATE. For a table `X : [100000, 128]` and a matrix `Wm : [128, 128]`
    of real entries, real edge weights `wgt`, source indices `iS` and destination indices `iD` (one per edge):
    accumulating into row `n` the weighted source rows `wgt e · X[src e, ·]` of the edges with destination `n` and then
    multiplying the accumulated row into column `j` of `Wm` equals accumulating the weighted entries
    `wgt e · (X · Wm)[src e, j]` directly. Both sides are sums over the same set of edges (those whose destination
    index, read signed, is `n`); with all entries real, the left is `∑ₖ (∑ₑ X[src e, k] · wgt e) · Wm[k, j]` and the right
    `∑ₑ (∑ₖ X[src e, k] · Wm[k, j]) · wgt e`, equal by distributivity and the exchange of the two finite sums. -/
theorem agg_then_mul_eq {w : Nat}
    (wfg : GatherDims.WF ⟨2, ![100000, 128]⟩ ⟨2, ![1700000, 1]⟩ ⟨2, ![1700000, 128]⟩ [1] [0] [] [0] [] 1 ![1, 128])
    (wfs : ScatterDims.WF ⟨2, ![100000, 128]⟩ ⟨2, ![1700000, 1]⟩ ⟨2, ![1700000, 128]⟩ [1] [0] [0] 1)
    (X : (⟨2, ![100000, 128]⟩ : Shape).Idx → EReal) (Wm : (⟨2, ![128, 128]⟩ : Shape).Idx → EReal)
    (iS iD : IVec ⟨2, ![1700000, 1]⟩ w) (wgt : Fin 1700000 → EReal)
    (z : (⟨2, ![100000, 128]⟩ : Shape).Idx → EReal)
    (hz : ∀ i, z i = 0) (hX : ∀ i, ∃ r : ℝ, X i = (r : EReal)) (hW : ∀ i, ∃ r : ℝ, Wm i = (r : EReal))
    (hwgt : ∀ e, ∃ r : ℝ, wgt e = (r : EReal)) (n : Fin 100000) (j : Fin 128) :
    ∑ k : Fin 128, Ideal.hostScatterAdd (rowScatter wfs) z iD
        (fun u => Host.gather (rowGather wfg) X iS u * wgt (u 0)) (ix2 n k) * Wm (ix2 k j)
      = Ideal.hostScatterAdd (rowScatter wfs) z iD
          (fun u => Host.gather (rowGather wfg)
            (fun i => ∑ k : Fin 128, X (ix2 (i 0) k) * Wm (ix2 k (i 1))) iS u * wgt (u 0)) (ix2 n j) := by
  -- the accumulated row's entry `k`: the sum over the edges into `n` of the weighted source entries
  have hL : ∀ k : Fin 128,
      Ideal.hostScatterAdd (rowScatter wfs) z iD
          (fun u => Host.gather (rowGather wfg) X iS u * wgt (u 0)) (ix2 n k)
        = ∑ e ∈ Finset.univ.filter (fun e : Fin 1700000 => (iD (ix2 e (0 : Fin 1))).toInt = (n.val : Int)),
            X (ix2 (srcRow iS e) k) * wgt e := by
    intro k
    refine (scatterAdd_rows_apply wfs z iD _ n k).trans ?_
    rw [hz, zero_add]
    refine Finset.sum_congr rfl fun e _ => ?_
    show Host.gather (rowGather wfg) X iS (ix2 e k) * wgt e = _
    rw [gather_rows_apply]
  -- the directly accumulated entry: the sum over the same edges of the weighted entries of the product
  have hR : Ideal.hostScatterAdd (rowScatter wfs) z iD
          (fun u => Host.gather (rowGather wfg)
            (fun i => ∑ k : Fin 128, X (ix2 (i 0) k) * Wm (ix2 k (i 1))) iS u * wgt (u 0)) (ix2 n j)
        = ∑ e ∈ Finset.univ.filter (fun e : Fin 1700000 => (iD (ix2 e (0 : Fin 1))).toInt = (n.val : Int)),
            (∑ k : Fin 128, X (ix2 (srcRow iS e) k) * Wm (ix2 k j)) * wgt e := by
    refine (scatterAdd_rows_apply wfs z iD _ n j).trans ?_
    rw [hz, zero_add]
    refine Finset.sum_congr rfl fun e _ => ?_
    show Host.gather (rowGather wfg)
        (fun i => ∑ k : Fin 128, X (ix2 (i 0) k) * Wm (ix2 k (i 1))) iS (ix2 e j) * wgt e = _
    rw [gather_rows_apply]
  rw [hR]
  simp only [hL]
  exact Cert.EdgeSum.sum_exchange _ (fun e k => X (ix2 (srcRow iS e) k)) wgt (fun k => Wm (ix2 k j))
    (fun e k => hX _) hwgt (fun k => hW _)

end Cert.EdgeExchange

end
-- ==== Proof.RefAgg.lean ====
/-
  The reference program's aggregation step, read through the row-indexing lemmas.

  From the edge list the reference computes the degree of every node, its guarded inverse square root, the weight of
  every edge (the product of the two endpoints' inverse square roots), the product `h = x0 · x2`, the gathered source
  rows of `h`, the messages (gathered rows times weights) and their scatter-add into the destination rows of a zero
  array. Stated here: the weights are real numbers (`wgt_real`), the zero array is zero (`zeros`), the messages and
  the product entry by entry (`msgs_eq`, `h_eq`), and the step's linearity: the aggregate of the weighted source rows
  of `x0`, multiplied by `x2`, is the reference's aggregate (`agg_mul`).
-/
import proofs.«121900_j12635793785486_2_alg».proof.Proof.ReadPatched
import proofs.«121900_j12635793785486_2_alg».proof.Proof.EdgeExchange
import proofs.«121900_j12635793785486_2_alg».proof.Proof.EdgeSum
import proofs.«121900_j12635793785486_2_alg».proof.Proof.RowIndexing
import Idealize.ShloMosaic.Lib.ValueIdx
import Idealize.ShloMosaic.Lib.Pipeline.Value
import Idealize.ShloMosaic.PureOps.Ideal.Laws

noncomputable section

open scoped BigOperators

namespace Cert.ReferenceIdeal.Agg

open Cert.ReferenceIdeal Cert.ReferenceIdeal.ReadP Cert.RowIndexing Idealize.ShloMosaic Idealize.ShloMosaic.ValueIdx

variable [Cert.ReferenceIdeal.Facts]

/-- The weight of edge `e`: the product of the inverse square roots of the degrees of its two endpoints. -/
def wgt (x1 : (⟨S2x1600000, .i32⟩ : BufTy).Contents (Elt Ideal)) (e : Fin 1700000) : EReal :=
  val_main_v30 (F := Ideal) x1 (ix1 e)

/-- The inverse square root of a node's degree, guarded to 0 where the degree is not positive, is a real number. -/
theorem dinv_real (x1 : (⟨S2x1600000, .i32⟩ : BufTy).Contents (Elt Ideal)) (j : S100000.Idx) :
    ∃ r : ℝ, val_main_v15 (F := Ideal) x1 j = (r : EReal) := by
  rw [val_main_v15_apply, val_main_v12_apply, val_main_v13_apply, val_main_v14_apply, val_main_v11_apply,
    val_main_cst_1_apply, val_main_cst_2_apply, Ideal.cmpf_def, Ideal.hostUnary_rsqrt_def, Ideal.ofBits_def]
  exact Cert.EdgeSum.guarded_rsqrt_real (val_main_v10 (F := Ideal) x1 j)

/-- An edge's weight is a real number: a product of two guarded inverse square roots, each read at some node. -/
theorem wgt_real (x1 : (⟨S2x1600000, .i32⟩ : BufTy).Contents (Elt Ideal)) (e : Fin 1700000) :
    ∃ r : ℝ, wgt x1 e = (r : EReal) := by
  unfold wgt
  rw [val_main_v30_apply]
  refine Cert.EdgeSum.real_mul ?_ ?_
  · unfold val_main_v22 Host.gather
    exact dinv_real x1 _
  · unfold val_main_v29 Host.gather
    exact dinv_real x1 _

/-- The array the aggregate accumulates into is zero everywhere. -/
theorem zeros (i : S100000x128.Idx) : val_main_v42 (F := Ideal) i = 0 := by
  rw [val_main_v42_apply, val_main_cst_8_apply]
  exact Ideal.ofBits_zero_f32

/-- The messages: a gathered row times the edge's weight broadcast over the 128 features, entry by entry. -/
theorem msgs_eq {g : GatherDims S100000x128 S1700000x1 S1700000x128}
    (X : (⟨S100000x128, .f32⟩ : BufTy).Contents (Elt Ideal)) (x1 : (⟨S2x1600000, .i32⟩ : BufTy).Contents (Elt Ideal)) :
    mulf (F := Ideal) (φ := .f32) (Host.gather g X (val_main_v37 (F := Ideal) x1)) (val_main_v40 (F := Ideal) x1)
      = fun u => Host.gather g X (val_main_v37 (F := Ideal) x1) u * wgt x1 (u 0) := by
  funext u
  show Host.gather g X (val_main_v37 (F := Ideal) x1) u * val_main_v40 (F := Ideal) x1 u = _
  rw [val_main_v40_apply, val_main_v39_apply]
  have hi : idx_main_v39 (idx_main_v40 u) = ix1 (u 0) :=
    funext fun a => Fin.ext (by match a with | ⟨0, _⟩ => rfl)
  rw [hi]
  rfl

/-- The product `x0 · x2`, entry by entry: the sum over the contracted coordinate. -/
theorem h_eq (x0 : (⟨S100000x128, .f32⟩ : BufTy).Contents (Elt Ideal)) (x2 : (⟨S128x128, .f32⟩ : BufTy).Contents (Elt Ideal)) :
    val_main_v31 (F := Ideal) x0 x2 = fun i => ∑ k : Fin 128, x0 (ix2 (i 0) k) * x2 (ix2 k (i 1)) := by
  funext i
  rw [val_main_v31_apply]
  refine Finset.sum_congr rfl fun k _ => ?_
  have hl : lidx_main_v31 i k = ix2 (i 0) k :=
    funext fun a => Fin.ext (by match a with | ⟨0, _⟩ => rfl | ⟨1, _⟩ => rfl)
  have hr : ridx_main_v31 i k = ix2 k (i 1) :=
    funext fun a => Fin.ext (by match a with | ⟨0, _⟩ => rfl | ⟨1, _⟩ => rfl)
  rw [hl, hr]
  rfl

/-- The reference's row-gather record is the row-gather dimension numbers of `Cert.RowIndexing`. -/
theorem gather_rec : gather_S100000x128_S1700000x1_S1700000x128_1_0_n_n_0_1_1128
    = rowGather gather_S100000x128_S1700000x1_S1700000x128_1_0_n_n_0_1_1128.wf := rfl

/-- The reference's row-scatter record is the row-scatter dimension numbers of `Cert.RowIndexing`. -/
theorem scatter_rec : scatter_S100000x128_S1700000x1_S1700000x128_1_0_0_1
    = rowScatter scatter_S100000x128_S1700000x1_S1700000x128_1_0_0_1.wf := rfl

/-- On the extended reals the host's scatter with an `add` body is the exact scatter-add: each operand element plus
    the sum of the update elements that land on it. -/
theorem scatterAdd_ideal {s si su : Shape} (d : ScatterDims s si su) {w : Nat} (x : FVec Ideal s .f32) (idx : IVec si w)
    (upd : FVec Ideal su .f32) : Host.scatterAdd d x idx upd = Ideal.hostScatterAdd d x idx upd := rfl

/-- THE AGGREGATE OF THE PRODUCT IS THE PRODUCT OF THE AGGREGATE. Multiplying the aggregate of the weighted source
    rows of `x0` by the matrix `x2` gives the reference's aggregate of the weighted source rows of `x0 · x2`: both
    are, at `(n, j)`, the double sum over the edges into `n` and the contracted coordinate of
    `x0[src e, k] · x2[k, j] · wgt e`, the entries of `x0` and `x2` and the weights being real numbers. -/
theorem agg_mul (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (hx0 : ∀ i, ∃ r : ℝ, x0 i = (r : EReal)) (hx2 : ∀ i, ∃ r : ℝ, x2 i = (r : EReal))
    (n : Fin 100000) (j : Fin 128) :
    ∑ k : Fin 128, Host.scatterAdd scatter_S100000x128_S1700000x1_S1700000x128_1_0_0_1
          (val_main_v42 (F := Ideal)) (val_main_v43 (F := Ideal) x1)
          (mulf (F := Ideal) (φ := .f32)
            (Host.gather gather_S100000x128_S1700000x1_S1700000x128_1_0_n_n_0_1_1128 x0 (val_main_v37 (F := Ideal) x1))
            (val_main_v40 (F := Ideal) x1)) (ix2 n k) * x2 (ix2 k j)
      = val_main_v44 (F := Ideal) x0 x1 x2 (ix2 n j) := by
  unfold val_main_v44 val_main_v41 val_main_v38
  rw [msgs_eq, msgs_eq, h_eq]
  have hz : ∀ i, val_main_v42 (F := Ideal) i = 0 := zeros
  have hwg := wgt_real x1
  generalize val_main_v42 (F := Ideal) = z at hz ⊢
  generalize val_main_v43 (F := Ideal) x1 = iD
  generalize val_main_v37 (F := Ideal) x1 = iS
  generalize wgt x1 = wg at hwg ⊢
  rw [scatterAdd_ideal, scatterAdd_ideal, gather_rec, scatter_rec]
  exact Cert.EdgeExchange.agg_then_mul_eq
    gather_S100000x128_S1700000x1_S1700000x128_1_0_n_n_0_1_1128.wf
    scatter_S100000x128_S1700000x1_S1700000x128_1_0_0_1.wf
    x0 x2 iS iD wg z hz hx0 hx2 hwg n j

end Cert.ReferenceIdeal.Agg

end
-- ==== Proof.RefNorm.lean ====
/-
  The reference's tail is the row-wise normalisation of its pre-activations.

  After the aggregation `agg` (an array of 100000 rows of 128 features) the reference adds the bias b along the feature
  axis, giving the pre-activations a = agg + b; takes each row's mean μ = (∑ₖ aₖ) / 128, spelt as a sum over the feature
  axis from a zero initial value, divided by the word 128, and broadcast back along the row; takes the row's variance
  σ² = (∑ₖ (aₖ − μ)²) / 128 the same way; and returns max (((a_q − μ) · (σ² + ε)^(−1/2)) · γ_q + β_q) 0, the zero a
  broadcast word. Read at an index (n, q), each broadcast reads its operand at the index with the broadcast coordinate
  dropped or set to 0, and each sum over the feature axis runs over the indices (n, k); the zero initial value of a sum
  is the extended real 0 and disappears. What is left is, term for term, the row normalisation of the row n of a.
-/
import proofs.«121900_j12635793785486_2_alg».proof.Proof.ReadPatched
import proofs.«121900_j12635793785486_2_alg».proof.Proof.RowNorm
import Idealize.ShloMosaic.Lib.ValueIdx
import Idealize.ShloMosaic.PureOps.Ideal.Laws

noncomputable section

namespace Cert.ReferenceIdeal.RefNorm

open Cert.ReferenceIdeal Cert.ReferenceIdeal.ReadP Cert.RowNorm Idealize.ShloMosaic Idealize.ShloMosaic.ValueIdx
open Idealize.SL.Sem

variable [Cert.ReferenceIdeal.Facts]

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))

/-- The pre-activation at (n, k) is the aggregate there plus the bias at k: the bias reaches the [100000, 128] array
    through two broadcasts, [128] → [1, 128] → [100000, 128], which read it at the feature coordinate. -/
theorem pre_apply (n : Fin 100000) (k : Fin 128) :
    val_main_v47 (F := Ideal) x0 x1 x2 x3 (ix2 n k) = val_main_v44 (F := Ideal) x0 x1 x2 (ix2 n k) + x3 (ix1 k) := by
  have h : idx_main_v45 (idx_main_v46 (ix2 n k)) = ix1 k :=
    funext fun a => Fin.ext (by match a with | ⟨0, _⟩ => rfl)
  rw [val_main_v47_apply, val_main_v46_apply, val_main_v45_apply, h]
  rfl

/-- The reference's mean of row n, held at index (n, 0) of a [100000, 1] array, is the mean of the row's
    pre-activations: the sum over the feature axis starts from the zero word, which is 0. -/
theorem mean_apply (n : Fin 100000) :
    val_main_v51 (F := Ideal) x0 x1 x2 x3 (ix2 n (0 : Fin 1))
      = mean (fun k => val_main_v47 (F := Ideal) x0 x1 x2 x3 (ix2 n k)) := by
  have h : ∀ k, idx_main_v48 (idx_main_v49 (ix2 n (0 : Fin 1))) k = ix2 n k := fun k =>
    funext fun a => Fin.ext (by match a with | ⟨0, _⟩ => rfl | ⟨1, _⟩ => rfl)
  rw [val_main_v51_apply, val_main_v49_apply, val_main_v50_apply, val_main_cst_10_apply, val_main_v48_apply,
    val_main_cst_9_apply]
  simp only [h, Ideal.hostDivf_def, Ideal.ofBits_def, Ideal.ofBits_zero_f32, zero_add]
  rfl

/-- The squared deviation at (n, k): the mean, broadcast along the row, is read at (n, 0). -/
theorem sq_apply (n : Fin 100000) (k : Fin 128) :
    val_main_v54 (F := Ideal) x0 x1 x2 x3 (ix2 n k)
      = (val_main_v47 (F := Ideal) x0 x1 x2 x3 (ix2 n k) - mean (fun k => val_main_v47 (F := Ideal) x0 x1 x2 x3 (ix2 n k)))
        * (val_main_v47 (F := Ideal) x0 x1 x2 x3 (ix2 n k) - mean (fun k => val_main_v47 (F := Ideal) x0 x1 x2 x3 (ix2 n k))) := by
  have h52 : idx_main_v52 (ix2 n k) = ix2 n (0 : Fin 1) :=
    funext fun a => Fin.ext (by match a with | ⟨0, _⟩ => rfl | ⟨1, _⟩ => rfl)
  rw [val_main_v54_apply, val_main_v53_apply, val_main_v52_apply, h52, mean_apply, Ideal.mulf_def, Ideal.subf_def]

/-- The reference's variance of row n, at index (n, 0), is the variance of the row's pre-activations: the sum over the
    feature axis of the squared deviations, from the zero word, divided by 128. -/
theorem variance_apply (n : Fin 100000) :
    val_main_v58 (F := Ideal) x0 x1 x2 x3 (ix2 n (0 : Fin 1))
      = variance (fun k => val_main_v47 (F := Ideal) x0 x1 x2 x3 (ix2 n k)) := by
  have hs : ∀ k : Fin 128, val_main_v54 (F := Ideal) x0 x1 x2 x3 (idx_main_v55 (idx_main_v56 (ix2 n (0 : Fin 1))) k)
      = (val_main_v47 (F := Ideal) x0 x1 x2 x3 (ix2 n k) - mean (fun k => val_main_v47 (F := Ideal) x0 x1 x2 x3 (ix2 n k)))
        * (val_main_v47 (F := Ideal) x0 x1 x2 x3 (ix2 n k) - mean (fun k => val_main_v47 (F := Ideal) x0 x1 x2 x3 (ix2 n k))) := fun k => by
    have h : idx_main_v55 (idx_main_v56 (ix2 n (0 : Fin 1))) k = ix2 n k :=
      funext fun a => Fin.ext (by match a with | ⟨0, _⟩ => rfl | ⟨1, _⟩ => rfl)
    rw [h, sq_apply]
  rw [val_main_v58_apply, val_main_v56_apply, val_main_v57_apply, val_main_cst_12_apply, val_main_v55_apply,
    val_main_cst_11_apply]
  simp only [hs, Ideal.hostDivf_def, Ideal.ofBits_def, Ideal.ofBits_zero_f32, zero_add]
  rfl

/-- The reference's result is the row-wise normalisation of the pre-activations agg + b, scaled by γ, shifted by β and
    rectified. At (n, q): the maximum with the broadcast zero word of ((a − μ) · rsqrt (σ² + ε)) · γ_q + β_q, where μ and
    rsqrt (σ² + ε) are read at (n, 0) and γ, β at q; the aggregate itself is never opened. -/
theorem out_eq :
    val_main_v72 (F := Ideal) x0 x1 x2 x3 x4 x5
      = normRows (fun i => val_main_v44 (F := Ideal) x0 x1 x2 i + x3 (ix1 (i 1))) (fun k => x4 (ix1 k)) (fun k => x5 (ix1 k)) := by
  funext i
  obtain ⟨n, q, rfl⟩ : ∃ (n : Fin 100000) (q : Fin 128), i = ix2 n q := ⟨i 0, i 1, eq_ix2 i⟩
  rw [normRows_apply]
  have hpre : (fun k => val_main_v47 (F := Ideal) x0 x1 x2 x3 (ix2 n k))
      = fun k => val_main_v44 (F := Ideal) x0 x1 x2 (ix2 n k) + x3 (ix1 k) := funext fun k => pre_apply x0 x1 x2 x3 n k
  have h59 : idx_main_v59 (ix2 n q) = ix2 n (0 : Fin 1) :=
    funext fun a => Fin.ext (by match a with | ⟨0, _⟩ => rfl | ⟨1, _⟩ => rfl)
  have h64 : idx_main_v64 (ix2 n q) = ix2 n (0 : Fin 1) :=
    funext fun a => Fin.ext (by match a with | ⟨0, _⟩ => rfl | ⟨1, _⟩ => rfl)
  have h67 : idx_main_v66 (idx_main_v67 (ix2 n q)) = ix1 q :=
    funext fun a => Fin.ext (by match a with | ⟨0, _⟩ => rfl)
  have h70 : idx_main_v69 (idx_main_v70 (ix2 n q)) = ix1 q :=
    funext fun a => Fin.ext (by match a with | ⟨0, _⟩ => rfl)
  rw [val_main_v72_apply, val_main_call1_v0_apply, val_main_call1_cst_apply, val_main_v71_apply, val_main_v70_apply,
    val_main_v69_apply, h70, val_main_v68_apply, val_main_v67_apply, val_main_v66_apply, h67, val_main_v65_apply,
    val_main_v64_apply, h64, val_main_v63_apply, val_main_v62_apply, val_main_v61_apply, val_main_cst_13_apply,
    variance_apply, val_main_v60_apply, val_main_v59_apply, h59, mean_apply, hpre, pre_apply]
  simp only [Ideal.maximumf_def, Ideal.addf_def, Ideal.mulf_def, Ideal.subf_def, Ideal.hostUnary_rsqrt_def, Ideal.ofBits_def]
  rfl

end

end Cert.ReferenceIdeal.RefNorm

end
-- ==== Proof.FiniteArgs.lean ====
/-
  The precondition decoded: the float inputs are real numbers.

  The precondition computes, for each float input v, the array |v| < +∞ elementwise, folds it by `and` over all of
  its axes, and joins the five folds by `and`; it claims that the result is 1. A conjunction that is 1 has both of its
  operands 1, and a fold by `and` over all axes that is 1 met a 1 at every index, so |v i| < +∞ holds at every
  index i. At the ideal instance a float is an extended real, |x| is max x (-x), and the pattern 0x7F800000 denotes ⊤.
  An extended real x with max x (-x) < ⊤ is neither ⊤ (then max x (-x) = ⊤) nor ⊥ (then -x = ⊤), so it is a real
  number. This is read off for the first input (the [100000, 128] array) and the third (the [128, 128] array).
-/
import proofs.«121900_j12635793785486_2_alg».proof.Pre_finite_inputs
import Idealize.ShloMosaic.PureOps.Ideal
import Idealize.ShloMosaic.Lib.ValueIdx
import Idealize.ShloMosaic.Lib.ReduceAll

noncomputable section

namespace Cert.FiniteArgs

open Idealize.ShloMosaic Idealize.ShloMosaic.ValueIdx
open Cert.Pre_finite_inputs

variable [Cert.Pre_finite_inputs.Facts]

/-- An extended real whose absolute value max x (-x) compares strictly below the value of the pattern 0x7F800000
    (which is ⊤) is a real number: at ⊥ and at ⊤ the absolute value is ⊤, and ⊤ < ⊤ is false. -/
theorem real_of_abs_lt_top (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every element of the first and of the third input is a real number. The claim, read at
    the one index of the rank-0 result, is a five-fold conjunction; its first two conjuncts are the folds by `and`
    of |a0| < ⊤ and of |a2| < ⊤ over all axes, each of which gives the comparison at every index. -/
theorem args_real (a0 : FVec Ideal S100000x128 .f32) (a1 : IVec S2x1600000 32) (a2 : FVec Ideal S128x128 .f32)
    (a3 a4 a5 : FVec Ideal S128 .f32)
    (h : Cert.Pre_finite_inputs.fn (F := Ideal) a0 a1 a2 a3 a4 a5 = (fun _ => 1#1)) :
    (∀ i, ∃ r : ℝ, a0 i = (r : EReal)) ∧ (∀ i, ∃ r : ℝ, a2 i = (r : EReal)) := by
  -- the rank-0 result has one index
  haveI : Subsingleton S_.Idx := ⟨fun a b => funext fun d => d.elim0⟩
  have e := congrFun h ValueIdx.ix0
  dsimp only [Cert.Pre_finite_inputs.fn, Cert.Pre_finite_inputs.fn_part1] at e
  -- a conjunction of words that is 1 has every conjunct 1
  simp only [andi, IntOp.andi_eq_one] at e
  obtain ⟨⟨⟨⟨e0, e2⟩, -⟩, -⟩, -⟩ := e
  -- a fold by `and` over all axes that is 1 gives the elementwise comparison |v i| < ⊤ at every index
  refine ⟨fun i => ?_, fun i => ?_⟩
  · exact real_of_abs_lt_top (a0 i) (Host.reduce_andi_all _ _ _ _ _ e0 i)
  · exact real_of_abs_lt_top (a2 i) (Host.reduce_andi_all _ _ _ _ _ e2 i)

end Cert.FiniteArgs

end
-- ==== Proof.Bridge.lean ====
/-
  The two programs compute one array.

  The kernel normalises the rows of `agg_x · W + b`, where `agg_x` aggregates, per destination node, the weighted source
  ROWS OF `x`; the reference normalises the rows of `agg_h + b`, where `agg_h` aggregates the weighted source rows of
  `h = x · W`. Aggregation is linear, so `agg_x · W = agg_h` entry by entry — on the extended reals because every entry
  of `x` and `W` is real (the precondition) and every edge weight is real (a product of two guarded reciprocal square
  roots of degrees). The normalisation that follows is the same function of the rows on both sides.
-/
import proofs.«121900_j12635793785486_2_alg».proof.Proof.KernelArray
import proofs.«121900_j12635793785486_2_alg».proof.Proof.KernelAgg
import proofs.«121900_j12635793785486_2_alg».proof.Proof.RefAgg
import proofs.«121900_j12635793785486_2_alg».proof.Proof.RefNorm
import proofs.«121900_j12635793785486_2_alg».proof.Proof.FiniteArgs

set_option maxRecDepth 16384

noncomputable section

namespace Cert.Bridge

open Cert.KernelIdeal Cert.KernelIdeal.Gen Idealize.ShloMosaic Idealize.ShloMosaic.TcCoe Idealize.SL.Sem
open Idealize.ShloMosaic.ValueIdx Cert.RowNorm

variable [Cert.Pre_finite_inputs.Facts]
variable (m : (ℓ : Loc nD τ sig) → Buf (Elt Ideal) ℓ)

/-- THE CORE, for any arrays: if the aggregate operand `A` is the scatter-add of the weighted source rows of `x0`, the
    weights operand is `x2`, and the three row operands are `x3`, `x4`, `x5` as rows, then the kernel's output function of
    them is the reference's result term — provided `x0` and `x2` hold real numbers. -/
theorem core (A : S100000x128.Idx → EReal) (W : S128x128.Idx → EReal) (B G Be : S1x128.Idx → EReal)
    (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 x4 x5 : (⟨Cert.ReferenceIdeal.S128, .f32⟩ : BufTy).Contents (Elt Ideal))
    (hA : A = Host.scatterAdd (F := Ideal) (φ := .f32) scatter_S100000x128_S1700000x1_S1700000x128_1_0_0_1
          (Cert.ReferenceIdeal.ReadP.val_main_v42 (F := Ideal)) (Cert.ReferenceIdeal.ReadP.val_main_v43 (F := Ideal) x1)
          (mulf (F := Ideal) (φ := .f32) (Host.gather gather_S100000x128_S1700000x1_S1700000x128_1_0_n_n_0_1_1128 x0
              (Cert.ReferenceIdeal.ReadP.val_main_v37 (F := Ideal) x1)) (Cert.ReferenceIdeal.ReadP.val_main_v40 (F := Ideal) x1)))
    (hW : W = x2) (hB : ∀ k : Fin 128, B (ix2 (0 : Fin 1) k) = x3 (ix1 k)) (hG : ∀ k : Fin 128, G (ix2 (0 : Fin 1) k) = x4 (ix1 k))
    (hBe : ∀ k : Fin 128, Be (ix2 (0 : Fin 1) k) = x5 (ix1 k))
    (hx0 : ∀ i, ∃ r : ℝ, x0 i = (r : EReal)) (hx2 : ∀ i, ∃ r : ℝ, x2 i = (r : EReal)) :
    Arr.outArr A W B G Be = Cert.ReferenceIdeal.ReadP.val_main_v72 (F := Ideal) x0 x1 x2 x3 x4 x5 := by
  subst hA hW
  rw [Cert.ReferenceIdeal.RefNorm.out_eq]
  unfold Arr.outArr
  rw [funext hG, funext hBe]
  refine normRows_congr _ _ _ _ (fun n k => ?_)
  show (∑ k' : Fin 128, Host.scatterAdd (F := Ideal) (φ := .f32) scatter_S100000x128_S1700000x1_S1700000x128_1_0_0_1
          (Cert.ReferenceIdeal.ReadP.val_main_v42 (F := Ideal)) (Cert.ReferenceIdeal.ReadP.val_main_v43 (F := Ideal) x1)
          (mulf (F := Ideal) (φ := .f32) (Host.gather gather_S100000x128_S1700000x1_S1700000x128_1_0_n_n_0_1_1128 x0
              (Cert.ReferenceIdeal.ReadP.val_main_v37 (F := Ideal) x1)) (Cert.ReferenceIdeal.ReadP.val_main_v40 (F := Ideal) x1)) (ix2 n k')
        * W (ix2 k' k)) + B (ix2 (0 : Fin 1) k) = _
  rw [hB]
  have eS : scatter_S100000x128_S1700000x1_S1700000x128_1_0_0_1
      = Cert.ReferenceIdeal.scatter_S100000x128_S1700000x1_S1700000x128_1_0_0_1 := rfl
  have eG : gather_S100000x128_S1700000x1_S1700000x128_1_0_n_n_0_1_1128
      = Cert.ReferenceIdeal.gather_S100000x128_S1700000x1_S1700000x128_1_0_n_n_0_1_1128 := rfl
  rw [eS, eG, Cert.ReferenceIdeal.Agg.agg_mul x0 x1 W hx0 hx2 n k]

/-- The kernel's output array, as the function of the arrays its region finds, is the reference's result term of the
    kernel's own argument arrays, whenever the float arguments hold real numbers. -/
theorem out_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = (fun _ => 1#1)) :
    Arr.outArr (V m c main_v43) (V m c main_arg2) (V m c main_v44) (V m c main_v45) (V m c main_v46)
      = Cert.ReferenceIdeal.ReadP.val_main_v72 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨hx0, hx2⟩ := Cert.FiniteArgs.args_real _ _ _ _ _ _ hpre
  exact core (V m c main_v43) (V m c main_arg2) (V m c main_v44) (V m c main_v45) (V m c main_v46)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (Agg.V_agg m c) (V_main_arg2 m c) (Agg.V_bias m c) (Agg.V_scale m c) (Agg.V_shift m c) hx0 hx2

end Cert.Bridge

end
-- ==== Proof.lean ====
/-
  Equivalence, over the extended reals, of a fused graph-convolution kernel and its jnp reference.

  Both programs build, from the edge list, the symmetric normalisation weights `deg^(-1/2)[src] · deg^(-1/2)[dst]` (with
  self-loops added) and aggregate messages by destination node; then add a bias, normalise each node's 128 features
  (layer normalisation, ε = f32(1e-5)), scale, shift and rectify. They differ in where the 128 × 128 product sits:
  the reference multiplies first (`h = x · W`) and aggregates the weighted rows of `h`; the kernel aggregates the weighted
  rows of `x` on the host and multiplies the aggregate by `W` inside its Pallas body, 4000 rows per grid point, fused with
  the bias, the normalisation and the ReLU. Aggregation is linear, so the two agree entry by entry wherever the sums are
  sums of real numbers: Proof/Bridge.lean.

  The five conjuncts: the two kernel frames are the generated frame certificates; the reference's frame is its run with
  the result dropped; the idealization rewrote nothing, so `preserves` is `True`; and the algebraic conjunct sets the
  kernel's run, read as one whole-array function (Proof/KernelArray.lean over the generated blockwise value leg), beside
  the reference's run at the same term.
-/
import proofs.«121900_j12635793785486_2_alg».proof.Defs
import proofs.«121900_j12635793785486_2_alg».proof.Proof.Gen.Kernel
import proofs.«121900_j12635793785486_2_alg».proof.Proof.Gen.Kernel.Skeleton
import proofs.«121900_j12635793785486_2_alg».proof.Proof.Gen.Kernel.Launch
import proofs.«121900_j12635793785486_2_alg».proof.Proof.Gen.Kernel.Points
import proofs.«121900_j12635793785486_2_alg».proof.Proof.Gen.Kernel.Frame
import proofs.«121900_j12635793785486_2_alg».proof.Proof.Gen.KernelIdeal
import proofs.«121900_j12635793785486_2_alg».proof.Proof.Gen.KernelIdeal.Skeleton
import proofs.«121900_j12635793785486_2_alg».proof.Proof.Gen.KernelIdeal.Launch
import proofs.«121900_j12635793785486_2_alg».proof.Proof.Gen.KernelIdeal.Points
import proofs.«121900_j12635793785486_2_alg».proof.Proof.Gen.KernelIdeal.Frame
import proofs.«121900_j12635793785486_2_alg».proof.Proof.Gen.KernelIdeal.Value
import proofs.«121900_j12635793785486_2_alg».proof.Proof.Gen.ReferenceIdeal
import proofs.«121900_j12635793785486_2_alg».proof.Proof.RunPatched
import proofs.«121900_j12635793785486_2_alg».proof.Proof.ReadPatched
import proofs.«121900_j12635793785486_2_alg».proof.Proof.Gen.Pre_finite_inputs
import proofs.«121900_j12635793785486_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end at the reference's result term of the (agreeing) argument arrays. -/
theorem algebraic : Cert.algebraic_KernelIdeal_ReferenceIdeal := by
  intro m ρ m' ρ' hpre hagree
  refine ⟨fun c => Cert.ReferenceIdeal.ReadP.val_main_v72 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.out_eq m c (hpre c)), (h c).2⟩) (Cert.KernelIdeal.Arr.run m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v72_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
